-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S2000x128 : Shape := ⟨2, ![2000, 128]⟩
abbrev S800000x128 : Shape := ⟨2, ![800000, 128]⟩
abbrev S50000x1 : Shape := ⟨2, ![50000, 1]⟩
abbrev S1x128 : Shape := ⟨2, ![1, 128]⟩
abbrev S2000x1 : Shape := ⟨2, ![2000, 1]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩

abbrev nBuf : Space → Nat
  | .hbm => 82
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S800000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S800000x1, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x1, .f32⟩
  | .hbm, ⟨60, _⟩ => ⟨S1x128, .f32⟩
  | .hbm, ⟨61, _⟩ => ⟨S50000x128, .f32⟩
  | .hbm, ⟨62, _⟩ => ⟨S50000x64, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S800000x1, .f32⟩
  | .hbm, ⟨73, _⟩ => ⟨S800000x64, .f32⟩
  | .hbm, ⟨74, _⟩ => ⟨S800000x64, .f32⟩
  | .hbm, ⟨75, _⟩ => ⟨S_, .f32⟩
  | .hbm, ⟨76, _⟩ => ⟨S50000x64, .f32⟩
  | .hbm, ⟨77, _⟩ => ⟨S800000x1, .i32⟩
  | .hbm, ⟨78, _⟩ => ⟨S50000x64, .f32⟩
  | .hbm, ⟨79, _⟩ => ⟨S50000x1, .f32⟩
  | .hbm, ⟨80, _⟩ => ⟨S1x64, .f32⟩
  | .hbm, ⟨81, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S2000x1_S2000x64 : S2000x1.Broadcasts S2000x64
  broadcasts_S1x64_S2000x64 : S1x64.Broadcasts S2000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S50000x128, .f32⟩
  | 7 => ⟨S1x800000, .i32⟩
  | 8 => ⟨S800000, .i32⟩
  | 9 => ⟨S1x800000, .i32⟩
  | 10 => ⟨S800000, .i32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S50000, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S800000x1, .f32⟩
  | 50 => ⟨S800000x128, .f32⟩
  | 51 => ⟨S800000x128, .f32⟩
  | 52 => ⟨S_, .f32⟩
  | 53 => ⟨S50000x128, .f32⟩
  | 54 => ⟨S800000x1, .i32⟩
  | 55 => ⟨S50000x128, .f32⟩
  | 56 => ⟨S_, .f32⟩
  | 57 => ⟨S50000, .f32⟩
  | 58 => ⟨S50000, .f32⟩
  | 59 => ⟨S50000x1, .f32⟩
  | 60 => ⟨S50000x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x64, .f32⟩
  | 70 => ⟨S1x800000, .i32⟩
  | 71 => ⟨S800000, .i32⟩
  | 72 => ⟨S1x800000, .i32⟩
  | 73 => ⟨S800000, .i32⟩
  | 74 => ⟨S_, .f32⟩
  | 75 => ⟨S800000, .f32⟩
  | 76 => ⟨S_, .f32⟩
  | 77 => ⟨S50000, .f32⟩
  | 78 => ⟨S800000x1, .i32⟩
  | 79 => ⟨S50000, .f32⟩
  | 80 => ⟨S_, .f32⟩
  | 81 => ⟨S50000, .f32⟩
  | 82 => ⟨S50000, .f32⟩
  | 83 => ⟨S50000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000, .f32⟩
  | 102 => ⟨S800000, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x64, .f32⟩
  | 112 => ⟨S800000x1, .f32⟩
  | 113 => ⟨S800000x64, .f32⟩
  | 114 => ⟨S800000x64, .f32⟩
  | 115 => ⟨S_, .f32⟩
  | 116 => ⟨S50000x64, .f32⟩
  | 117 => ⟨S800000x1, .i32⟩
  | 118 => ⟨S50000x64, .f32⟩
  | 119 => ⟨S_, .f32⟩
  | 120 => ⟨S50000, .f32⟩
  | 121 => ⟨S50000, .f32⟩
  | 122 => ⟨S50000x1, .f32⟩
  | 123 => ⟨S50000x64, .f32⟩
  | 124 => ⟨S50000x64, .f32⟩
  | 125 => ⟨S50000x64, .f32⟩
  | 126 => ⟨S1x64, .f32⟩
  | 127 => ⟨S50000x64, .f32⟩
  | _ => ⟨S50000x128, .f32⟩

abbrev hbmTy0_1 (i : Nat) : BufTy := match i % 128 with
  | 0 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_12 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_14 : Ref sig .tc := ⟨.hbm, 93, rfl⟩
abbrev main_v69 : Ref sig .tc := ⟨.hbm, 94, rfl⟩
abbrev main_v70 : Ref sig .tc := ⟨.hbm, 95, rfl⟩
abbrev main_c_15 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_16 : Ref sig .tc := ⟨.hbm, 103, rfl⟩
abbrev main_v77 : Ref sig .tc := ⟨.hbm, 104, rfl⟩
abbrev main_v78 : Ref sig .tc := ⟨.hbm, 105, rfl⟩
abbrev main_c_17 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_18 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_19 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel's run with its result named: every weakly fair execution of @main terminates, nothing faulting,
  with the result array holding what the last segment boundary's contents hold at it, and the six argument arrays as
  launched. The boundary contents are a fold through @main's seven segments (three stretches of host operations and
  four regions); the run is the library's launch over those segments, whose last thread state holds every unscoped
  buffer at the last boundary's contents.
-/
import proofs.«137684_j1357209665855_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. -/
theorem run : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v61 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Whole

end
-- ==== Proof.LibMatmul.lean ====
/-
  A matrix product of an [M, K] matrix by a [K, N] matrix into a zero accumulator, read at an entry at any sizes: entry
  (p, q) is the sum over k of the left operand's (p, k) entry times the right operand's (k, q) entry.
-/
import Idealize.ShloMosaic.PureOps.Ideal.Laws
import Idealize.ShloMosaic.Lib.ValueIdx

noncomputable section

namespace Cert.LibMatmul

open Idealize.ShloMosaic Idealize.ShloMosaic.ValueIdx

/-- The dimension numbers of the plain product — contract the left operand's axis 1 with the right operand's axis 0, no
    batch axes — under any proof of their conditions. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

theorem contr_rank : (plainDims M K N wf).contr.rank = 1 := rfl
theorem contr_size : (plainDims M K N wf).contr.size ⟨0, by rw [contr_rank]; exact Nat.one_pos⟩ = K := rfl

/-- The left operand's index at output (p, q) and contraction position k is (p, k). -/
theorem lhsIdx_eq (p : Fin M) (q : Fin N) (k : Fin K) :
    (plainDims M K N wf).lhsIdx (ix2 p q) ((contrEquiv1 (plainDims M K N wf) K (contr_rank wf) (contr_size wf)).symm k) = ix2 p k := by
  funext a
  apply Fin.ext
  match a with
  | ⟨0, _⟩ =>
    show ((plainDims M K N wf).lhsIdx (ix2 p q) _ (0 : Fin 2)).val = p.val
    unfold DotDims.lhsIdx
    simp
    rfl
  | ⟨1, _⟩ =>
    refine ((plainDims M K N wf).lhsIdx_val_of_single (cl := (1 : Fin 2)) rfl _ _).trans ?_
    exact contrEquiv1_symm_val _ K (contr_rank wf) (contr_size wf) k

/-- The right operand's index at output (p, q) and contraction position k is (k, q). -/
theorem rhsIdx_eq (p : Fin M) (q : Fin N) (k : Fin K) :
    (plainDims M K N wf).rhsIdx (ix2 p q) ((contrEquiv1 (plainDims M K N wf) K (contr_rank wf) (contr_size wf)).symm k) = ix2 k q := by
  funext a
  apply Fin.ext
  match a with
  | ⟨0, _⟩ =>
    refine ((plainDims M K N wf).rhsIdx_val_of_single (cr := (0 : Fin 2)) rfl _ _).trans ?_
    exact contrEquiv1_symm_val _ K (contr_rank wf) (contr_size wf) k
  | ⟨1, _⟩ =>
    show ((plainDims M K N wf).rhsIdx (ix2 p q) _ (1 : Fin 2)).val = q.val
    unfold DotDims.rhsIdx
    simp
    rfl

/-- THE PRODUCT READ AT (p, q): the sum over the contracted axis of the operands' entries multiplied. -/
theorem matmul_plain_apply {φ₁ φ₂ : FTy} (prec : Option ContractPrecision)
    (lhs : FVec Ideal ⟨2, ![M, K]⟩ φ₁) (rhs : FVec Ideal ⟨2, ![K, N]⟩ φ₂) (p : Fin M) (q : Fin N) :
    matmul (plainDims M K N wf) prec lhs rhs (constant ⟨2, ![M, N]⟩ .f32 0x00000000#32) (ix2 p q)
      = ∑ k : Fin K, lhs (ix2 p k) * rhs (ix2 k q) := by
  refine (Ideal.matmul_constant_zero_apply (plainDims M K N wf) prec lhs rhs (ix2 p q)).trans ?_
  rw [← Equiv.sum_comp (contrEquiv1 (plainDims M K N wf) K (contr_rank wf) (contr_size wf)).symm]
  refine Finset.sum_congr rfl fun k _ => ?_
  rw [lhsIdx_eq, rhsIdx_eq]

end Cert.LibMatmul

end
-- ==== Proof.LibColumn.lean ====
/-
  A column kept beside a matrix, read at an index at any sizes: a vector of length a cast to an [a, 1] column, and an
  [a, 1] column laid along every column of an [a, b] matrix.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibLayer.lean ====
/-
  The two whole-array functions of one graph-convolution layer, read at an entry at any sizes, over the extended reals:
  the product of an [M, K] matrix by a [K, N] matrix (entry (p, q) is the sum over k of x (p, k) · w (k, q)), and the
  layer's closing step, entry (p, q) ↦ agg (p, q) + h (p, q) · d p + b q, where d weighs the rows and b is added along
  the columns — stated once with d kept as an [n, 1] column and b as a [1, f] row, and once with both as plain vectors.
  Also: the host's dot_general with the plain dimension numbers is the product, and the host's spelling of the closing
  step (two broadcasts each for d and b, a multiply and two adds) is the closing step.
-/
import Idealize.ShloMosaic.PureOps.Ideal.Laws
import Idealize.ShloMosaic.Lib.ValueIdx
import Idealize.ShloMosaic.Lib.ValueLayout
import Idealize.ShloMosaic.Lib.Pipeline.Value
import proofs.«137684_j1357209665855_1_alg».proof.Proof.LibMatmul
import proofs.«137684_j1357209665855_1_alg».proof.Proof.LibColumn

noncomputable section

namespace Cert.Gcn

open Idealize.ShloMosaic Idealize.ShloMosaic.ValueIdx

/-! ## The matrix product -/

/-- The product of an [M, K] matrix by a [K, N] matrix: entry (p, q) is the sum over k of x (p, k) · w (k, q). -/
def prod {M K N : Nat} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem prod_apply {M K N : Nat} (x : FVec Ideal ⟨2, ![M, K]⟩ .f32) (w : FVec Ideal ⟨2, ![K, N]⟩ .f32) (p : Fin M) (q : Fin N) :
    prod x w (ix2 p q) = ∑ k : Fin K, x (ix2 p k) * w (ix2 k q) := rfl

/-- The host's dot_general with the plain dimension numbers (contract the left operand's axis 1 with the right operand's
    axis 0) is the product: both are the same sum over the contracted axis. -/
theorem dotGeneral_plain {M K N : Nat} (wf : DotDims.WF ⟨2, ![M, K]⟩ ⟨2, ![K, N]⟩ ⟨2, ![M, N]⟩ [1] [0] [0] [1] [] [])
    (prec : Option ContractPrecision) (x : FVec Ideal ⟨2, ![M, K]⟩ .f32) (w : FVec Ideal ⟨2, ![K, N]⟩ .f32) :
    Host.dotGeneral (F := Ideal) (Cert.LibMatmul.plainDims M K N wf) prec x w = prod x w := by
  funext i
  obtain ⟨p, q, rfl⟩ : ∃ (p : Fin M) (q : Fin N), i = ix2 p q := ⟨i 0, i 1, eq_ix2 i⟩
  refine (Ideal.dotGeneral_apply (Cert.LibMatmul.plainDims M K N wf) prec .single x w (ix2 p q)).trans ?_
  rw [← Equiv.sum_comp (contrEquiv1 (Cert.LibMatmul.plainDims M K N wf) K (Cert.LibMatmul.contr_rank wf) (Cert.LibMatmul.contr_size wf)).symm]
  refine Finset.sum_congr rfl fun k _ => ?_
  rw [Cert.LibMatmul.lhsIdx_eq, Cert.LibMatmul.rhsIdx_eq]
  rfl

/-! ## The closing step of a layer -/

/-- agg + h · d + b with d an [n, 1] column and b a [1, f] row. -/
def closeCols {n f : Nat} (agg h : FVec Ideal ⟨2, ![n, f]⟩ .f32) (d : FVec Ideal ⟨2, ![n, 1]⟩ .f32) (b : FVec Ideal ⟨2, ![1, f]⟩ .f32) :
    FVec Ideal ⟨2, ![n, f]⟩ .f32 :=
  fun i => agg i + h i * d (ix2 (n0 := n) (i 0) (0 : Fin 1)) + b (ix2 (n1 := f) (0 : Fin 1) (i 1))

/-- agg + h · d + b with d a vector over the rows and b a vector over the columns. -/
def close {n f : Nat} (agg h : FVec Ideal ⟨2, ![n, f]⟩ .f32) (d : FVec Ideal ⟨1, ![n]⟩ .f32) (b : FVec Ideal ⟨1, ![f]⟩ .f32) :
    FVec Ideal ⟨2, ![n, f]⟩ .f32 :=
  fun i => agg i + h i * d (ix1 (n := n) (i 0)) + b (ix1 (n := f) (i 1))

/-- The column form at the vectors cast to a column and to a row is the vector form. -/
theorem closeCols_cast {n f : Nat} (agg h : FVec Ideal ⟨2, ![n, f]⟩ .f32) (d : FVec Ideal ⟨1, ![n]⟩ .f32) (b : FVec Ideal ⟨1, ![f]⟩ .f32)
    (hd : (⟨1, ![n]⟩ : Shape).ShapeCasts ⟨2, ![n, 1]⟩) (hb : (⟨1, ![f]⟩ : Shape).ShapeCasts ⟨2, ![1, f]⟩) :
    closeCols agg h (shapeCast ⟨2, ![n, 1]⟩ d hd) (shapeCast ⟨2, ![1, f]⟩ b hb) = close agg h d b := by
  funext i
  obtain ⟨p, q, rfl⟩ : ∃ (p : Fin n) (q : Fin f), i = ix2 p q := ⟨i 0, i 1, eq_ix2 i⟩
  show agg (ix2 p q) + h (ix2 p q) * shapeCast ⟨2, ![n, 1]⟩ d hd (ix2 p (0 : Fin 1)) + shapeCast ⟨2, ![1, f]⟩ b hb (ix2 (0 : Fin 1) q)
    = agg (ix2 p q) + h (ix2 p q) * d (ix1 p) + b (ix1 q)
  rw [Cert.LibColumn.shapeCast_a_a1_apply, shapeCast_a_1a_apply]

/-- The host's spelling: d broadcast to a column and along the columns, b broadcast to a row and along the rows, one
    multiply and two adds, is the vector form. -/
theorem host_close {n f : Nat} (agg h : FVec Ideal ⟨2, ![n, f]⟩ .f32) (d : FVec Ideal ⟨1, ![n]⟩ .f32) (b : FVec Ideal ⟨1, ![f]⟩ .f32)
    (h1 : (⟨1, ![n]⟩ : Shape).BroadcastsInDim ⟨2, ![n, 1]⟩ (![0] : Fin 1 → Fin 2))
    (h2 : (⟨2, ![n, 1]⟩ : Shape).BroadcastsInDim ⟨2, ![n, f]⟩ (![0, 1] : Fin 2 → Fin 2))
    (h3 : (⟨1, ![f]⟩ : Shape).BroadcastsInDim ⟨2, ![1, f]⟩ (![1] : Fin 1 → Fin 2))
    (h4 : (⟨2, ![1, f]⟩ : Shape).BroadcastsInDim ⟨2, ![n, f]⟩ (![0, 1] : Fin 2 → Fin 2)) :
    addf (addf agg (mulf h (broadcastInDim ⟨2, ![n, f]⟩ ![0, 1] h2 (broadcastInDim ⟨2, ![n, 1]⟩ ![0] h1 d))))
      (broadcastInDim ⟨2, ![n, f]⟩ ![0, 1] h4 (broadcastInDim ⟨2, ![1, f]⟩ ![1] h3 b)) = close agg h d b := by
  funext i
  obtain ⟨p, q, rfl⟩ : ∃ (p : Fin n) (q : Fin f), i = ix2 p q := ⟨i 0, i 1, eq_ix2 i⟩
  have e1 : broadcastInDim ⟨2, ![n, f]⟩ ![0, 1] h2 (broadcastInDim ⟨2, ![n, 1]⟩ ![0] h1 d) (ix2 p q) = d (ix1 p) := by
    refine (broadcastInDim_apply _ h2 _ (ix2 p q) (ix2 p (0 : Fin 1)) fun a => ?_).trans
      (broadcastInDim_apply _ h1 d (ix2 p (0 : Fin 1)) (ix1 p) fun a => ?_)
    · match a with
      | ⟨0, _⟩ =>
        show p.val = if n = 1 then 0 else p.val
        split
        · have := p.isLt; omega
        · rfl
      | ⟨1, _⟩ => rfl
    · match a with
      | ⟨0, _⟩ =>
        show p.val = if n = 1 then 0 else p.val
        split
        · have := p.isLt; omega
        · rfl
  have e2 : broadcastInDim ⟨2, ![n, f]⟩ ![0, 1] h4 (broadcastInDim ⟨2, ![1, f]⟩ ![1] h3 b) (ix2 p q) = b (ix1 q) := by
    refine (broadcastInDim_apply _ h4 _ (ix2 p q) (ix2 (0 : Fin 1) q) fun a => ?_).trans
      (broadcastInDim_apply _ h3 b (ix2 (0 : Fin 1) q) (ix1 q) fun a => ?_)
    · match a with
      | ⟨0, _⟩ => rfl
      | ⟨1, _⟩ =>
        show q.val = if f = 1 then 0 else q.val
        split
        · have := q.isLt; omega
        · rfl
    · match a with
      | ⟨0, _⟩ =>
        show q.val = if f = 1 then 0 else q.val
        split
        · have := q.isLt; omega
        · rfl
  show agg (ix2 p q) + h (ix2 p q) * _ + _ = agg (ix2 p q) + h (ix2 p q) * d (ix1 p) + b (ix1 q)
  rw [e1, e2]

/-! ## The clamp below at zero -/

/-- max (v, 0), entry by entry. -/
def clamp {s : Shape} (v : FVec Ideal s .f32) : FVec Ideal s .f32 := fun i => max (v i) (Ideal.ofBits .f32 0x00000000#32)

/-- The host's spelling — the maximum with the zero constant broadcast to the shape — is the clamp. -/
theorem host_clamp {s : Shape} (v : FVec Ideal s .f32) (h0 : (⟨0, ![]⟩ : Shape).BroadcastsInDim s (![] : Fin 0 → Fin s.rank)) :
    maximumf v (broadcastInDim s ![] h0 (constant (F := Ideal) ⟨0, ![]⟩ .f32 0x00000000#32)) = clamp v := by
  funext i
  show max (v i) (broadcastInDim s ![] h0 (constant (F := Ideal) ⟨0, ![]⟩ .f32 0x00000000#32) i) = max (v i) _
  rw [broadcastInDim_apply _ h0 _ i ix0 (fun a => a.elim0)]
  rfl

end Cert.Gcn

end
-- ==== Proof.Glue.lean ====
/-
  The host side of the two graph-convolution layers as functions of the arrays they read, and the whole network as one
  function of the six arguments.
  From the [2, E] edge list: the sources (row 0) and the targets (row 1); the degree of a node, one plus the number of
  edges that target it (a scatter-add of ones); the weight of an edge, rsqrt (deg) gathered at its source times rsqrt
  (deg) gathered at its target (a negative index wrapped by the number of nodes before either gather); the reciprocal
  degree. For a feature matrix h: the aggregate, the scatter-add over the targets of h's rows gathered at the sources,
  each scaled by its edge's weight. A layer is the product h = x · W, then the closing step agg (h) + h · (1 / deg) + b;
  the network is two layers with a clamp at zero between them.
-/
import proofs.«137684_j1357209665855_1_alg».proof.Proof.Gen.KernelIdeal
import proofs.«137684_j1357209665855_1_alg».proof.Proof.LibLayer

noncomputable section

namespace Cert.KernelIdeal.Glue

open Cert.KernelIdeal Idealize.ShloMosaic
open Facts₀

/-- Row 0 of the edge list: each edge's source. -/
def src (ei : IVec S2x800000 32) : IVec S800000 32 :=
  shapeCast S800000 (extractStridedSlice S1x800000 ![0, 0] ei slices_S2x800000_S1x800000_0_0) shapeCasts_S1x800000_S800000

/-- Row 1 of the edge list: each edge's target. -/
def dst (ei : IVec S2x800000 32) : IVec S800000 32 :=
  shapeCast S800000 (extractStridedSlice S1x800000 ![1, 0] ei slices_S2x800000_S1x800000_1_0) shapeCasts_S1x800000_S800000

/-- A vector of node indices made ready for a gather: a negative one wrapped by the number of nodes, then one index
    per row. -/
def wrap (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The degree: one plus the number of edges that target the node. -/
def deg (d : IVec S800000 32) : FVec Ideal S50000 .f32 :=
  addf (broadcastInDim S50000 ![] bcast_S_S50000 (constant (F := Ideal) S_ .f32 0x3F800000#32))
    (Host.scatterAdd scatter_S50000_S800000x1_S800000_n_0_0_1
      (broadcastInDim S50000 ![] bcast_S_S50000 (constant (F := Ideal) S_ .f32 0x00000000#32))
      (broadcastInDim S800000x1 ![0] bcast_S800000_S800000x1_0 d)
      (broadcastInDim S800000 ![] bcast_S_S800000 (constant (F := Ideal) S_ .f32 0x3F800000#32)))

/-- An edge's weight: rsqrt (deg) at its source times rsqrt (deg) at its target. -/
def weight (s d : IVec S800000 32) : FVec Ideal S800000 .f32 :=
  mulf (Host.gather gather_S50000_S800000x1_S800000_n_0_n_n_0_1_1 (Host.rsqrt (deg d)) (wrap s))
    (Host.gather gather_S50000_S800000x1_S800000_n_0_n_n_0_1_1 (Host.rsqrt (deg d)) (wrap d))

/-- The reciprocal degree. -/
def invdeg (d : IVec S800000 32) : FVec Ideal S50000 .f32 :=
  Host.divf (broadcastInDim S50000 ![] bcast_S_S50000 (constant (F := Ideal) S_ .f32 0x3F800000#32)) (deg d)

/-- The aggregate of a 128-column feature matrix: its rows gathered at the sources, scaled by the edges' weights, added
    up at the targets. -/
def agg128 (h : FVec Ideal S50000x128 .f32) (s d : IVec S800000 32) (w : FVec Ideal S800000 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (mulf (Host.gather gather_S50000x128_S800000x1_S800000x128_1_0_n_n_0_1_1128 h (wrap s))
      (broadcastInDim S800000x128 ![0, 1] bcast_S800000x1_S800000x128_0_1 (broadcastInDim S800000x1 ![0] bcast_S800000_S800000x1_0 w)))

/-- The aggregate of a 64-column feature matrix. -/
def agg64 (h : FVec Ideal S50000x64 .f32) (s d : IVec S800000 32) (w : FVec Ideal S800000 .f32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 d)
    (mulf (Host.gather gather_S50000x64_S800000x1_S800000x64_1_0_n_n_0_1_164 h (wrap s))
      (broadcastInDim S800000x64 ![0, 1] bcast_S800000x1_S800000x64_0_1 (broadcastInDim S800000x1 ![0] bcast_S800000_S800000x1_0 w)))

/-- The first layer's output: x · W1 closed with its aggregate, the reciprocal degree and the bias, clamped at zero. -/
def hidden (x : FVec Ideal S50000x128 .f32) (ei : IVec S2x800000 32) (w1 : FVec Ideal S128x128 .f32) (b1 : FVec Ideal S128 .f32) :
    FVec Ideal S50000x128 .f32 :=
  Cert.Gcn.clamp (Cert.Gcn.close (n := 50000) (f := 128)
    (agg128 (Cert.Gcn.prod (M := 50000) (K := 128) (N := 128) x w1) (src ei) (dst ei) (weight (src ei) (dst ei)))
    (Cert.Gcn.prod (M := 50000) (K := 128) (N := 128) x w1) (invdeg (dst ei)) b1)

/-- The network's output: the second layer applied to the first layer's output, no clamp. -/
def out (x : FVec Ideal S50000x128 .f32) (ei : IVec S2x800000 32) (w1 : FVec Ideal S128x128 .f32) (b1 : FVec Ideal S128 .f32)
    (w2 : FVec Ideal S128x64 .f32) (b2 : FVec Ideal S64 .f32) : FVec Ideal S50000x64 .f32 :=
  Cert.Gcn.close (n := 50000) (f := 64)
    (agg64 (Cert.Gcn.prod (M := 50000) (K := 128) (N := 64) (hidden x ei w1 b1) w2) (src ei) (dst ei) (weight (src ei) (dst ei)))
    (Cert.Gcn.prod (M := 50000) (K := 128) (N := 64) (hidden x ei w1 b1) w2) (invdeg (dst ei)) b2

end Cert.KernelIdeal.Glue

end
-- ==== Proof.HostStretches.lean ====
/-
  The three stretches of host operations of the idealized kernel's @main, read at the buffers the regions and the later
  stretches take from them, from ANY contents W of the buffers at the stretch's start.
  The first stretch (before the first region) computes, from the edge list, the sources, the targets, the edges'
  weights and the reciprocal degree, and leaves the arguments alone. The second (between the first product and the first
  closing step) computes the 128-column aggregate of the product, the reciprocal degree as a column and the bias as a
  row, and leaves alone the product and what later stretches still read. The third does the same at 64 columns.
-/
import proofs.«137684_j1357209665855_1_alg».proof.Proof.Gen.KernelIdeal.Launch
import proofs.«137684_j1357209665855_1_alg».proof.Proof.Glue
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.SL.Sem Idealize.ShloMosaic.StableHlo

variable (W : Valuation τ sig (Elt Ideal))

/-! ## The first stretch -/

theorem first_src : StableHlo.after (hostOps0 (F := Ideal)) W (Proc.devRef .tc main_v1) = Glue.src (W (Proc.devRef .tc main_arg1)) := by
  dsimp only [hostOps0]; after_results_simp; rfl
theorem first_dst : StableHlo.after (hostOps0 (F := Ideal)) W (Proc.devRef .tc main_v3) = Glue.dst (W (Proc.devRef .tc main_arg1)) := by
  dsimp only [hostOps0]; after_results_simp; rfl
theorem first_weight : StableHlo.after (hostOps0 (F := Ideal)) W (Proc.devRef .tc main_v25)
    = Glue.weight (Glue.src (W (Proc.devRef .tc main_arg1))) (Glue.dst (W (Proc.devRef .tc main_arg1))) := by
  dsimp only [hostOps0]; after_results_simp; rfl
theorem first_invdeg : StableHlo.after (hostOps0 (F := Ideal)) W (Proc.devRef .tc main_v27) = Glue.invdeg (Glue.dst (W (Proc.devRef .tc main_arg1))) := by
  dsimp only [hostOps0]; after_results_simp; rfl
theorem first_keep_arg0 : StableHlo.after (hostOps0 (F := Ideal)) W (Proc.devRef .tc main_arg0) = W (Proc.devRef .tc main_arg0) := by
  dsimp only [hostOps0]; after_results_simp
theorem first_keep_arg2 : StableHlo.after (hostOps0 (F := Ideal)) W (Proc.devRef .tc main_arg2) = W (Proc.devRef .tc main_arg2) := by
  dsimp only [hostOps0]; after_results_simp
theorem first_keep_arg3 : StableHlo.after (hostOps0 (F := Ideal)) W (Proc.devRef .tc main_arg3) = W (Proc.devRef .tc main_arg3) := by
  dsimp only [hostOps0]; after_results_simp
theorem first_keep_arg4 : StableHlo.after (hostOps0 (F := Ideal)) W (Proc.devRef .tc main_arg4) = W (Proc.devRef .tc main_arg4) := by
  dsimp only [hostOps0]; after_results_simp
theorem first_keep_arg5 : StableHlo.after (hostOps0 (F := Ideal)) W (Proc.devRef .tc main_arg5) = W (Proc.devRef .tc main_arg5) := by
  dsimp only [hostOps0]; after_results_simp

/-! ## The second stretch -/

theorem second_agg : StableHlo.after (hostOps1 (F := Ideal)) W (Proc.devRef .tc main_v41)
    = Glue.agg128 (W (Proc.devRef .tc main_v28)) (W (Proc.devRef .tc main_v1)) (W (Proc.devRef .tc main_v3)) (W (Proc.devRef .tc main_v25)) := by
  dsimp only [hostOps1]; after_results_simp; rfl
theorem second_col : StableHlo.after (hostOps1 (F := Ideal)) W (Proc.devRef .tc main_v42)
    = shapeCast S50000x1 (W (Proc.devRef .tc main_v27)) Facts₀.shapeCasts_S50000_S50000x1 := by
  dsimp only [hostOps1]; after_results_simp; rfl
theorem second_row : StableHlo.after (hostOps1 (F := Ideal)) W (Proc.devRef .tc main_v43)
    = shapeCast S1x128 (W (Proc.devRef .tc main_arg3)) Facts₀.shapeCasts_S128_S1x128 := by
  dsimp only [hostOps1]; after_results_simp; rfl
theorem second_keep_v28 : StableHlo.after (hostOps1 (F := Ideal)) W (Proc.devRef .tc main_v28) = W (Proc.devRef .tc main_v28) := by
  dsimp only [hostOps1]; after_results_simp
theorem second_keep_v1 : StableHlo.after (hostOps1 (F := Ideal)) W (Proc.devRef .tc main_v1) = W (Proc.devRef .tc main_v1) := by
  dsimp only [hostOps1]; after_results_simp
theorem second_keep_v3 : StableHlo.after (hostOps1 (F := Ideal)) W (Proc.devRef .tc main_v3) = W (Proc.devRef .tc main_v3) := by
  dsimp only [hostOps1]; after_results_simp
theorem second_keep_v25 : StableHlo.after (hostOps1 (F := Ideal)) W (Proc.devRef .tc main_v25) = W (Proc.devRef .tc main_v25) := by
  dsimp only [hostOps1]; after_results_simp
theorem second_keep_v27 : StableHlo.after (hostOps1 (F := Ideal)) W (Proc.devRef .tc main_v27) = W (Proc.devRef .tc main_v27) := by
  dsimp only [hostOps1]; after_results_simp
theorem second_keep_arg4 : StableHlo.after (hostOps1 (F := Ideal)) W (Proc.devRef .tc main_arg4) = W (Proc.devRef .tc main_arg4) := by
  dsimp only [hostOps1]; after_results_simp
theorem second_keep_arg5 : StableHlo.after (hostOps1 (F := Ideal)) W (Proc.devRef .tc main_arg5) = W (Proc.devRef .tc main_arg5) := by
  dsimp only [hostOps1]; after_results_simp

/-! ## The third stretch -/

theorem third_agg : StableHlo.after (hostOps3 (F := Ideal)) W (Proc.devRef .tc main_v58)
    = Glue.agg64 (W (Proc.devRef .tc main_v45)) (W (Proc.devRef .tc main_v1)) (W (Proc.devRef .tc main_v3)) (W (Proc.devRef .tc main_v25)) := by
  dsimp only [hostOps3]; after_results_simp; rfl
theorem third_col : StableHlo.after (hostOps3 (F := Ideal)) W (Proc.devRef .tc main_v59)
    = shapeCast S50000x1 (W (Proc.devRef .tc main_v27)) Facts₀.shapeCasts_S50000_S50000x1 := by
  dsimp only [hostOps3]; after_results_simp; rfl
theorem third_row : StableHlo.after (hostOps3 (F := Ideal)) W (Proc.devRef .tc main_v60)
    = shapeCast S1x64 (W (Proc.devRef .tc main_arg5)) Facts₀.shapeCasts_S64_S1x64 := by
  dsimp only [hostOps3]; after_results_simp; rfl
theorem third_keep_v45 : StableHlo.after (hostOps3 (F := Ideal)) W (Proc.devRef .tc main_v45) = W (Proc.devRef .tc main_v45) := by
  dsimp only [hostOps3]; after_results_simp

end Cert.KernelIdeal.Stretch

end
-- ==== Proof.Linear1.lean ====
/-
  The first linear transform, x · W1, as the region that computes it leaves it: the region's result array is the
  product of the two arrays it was entered with, whatever they are. Each of the 25 grid points multiplies a block of 2000
  rows by the whole weight matrix and writes the block back; the blocks fill the array.
-/
import proofs.«137684_j1357209665855_1_alg».proof.Proof.Gen.KernelIdeal.Frame
import proofs.«137684_j1357209665855_1_alg».proof.Proof.LibLayer
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Linear1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's one stored value at (p, q) of its block: row p of the left block against column q of the weights. The
    rounding of both operands to bf16 is the identity on the extended reals, and the accumulator is zero. -/
theorem pay_apply (x0 : Vec Ideal S2000x128 .f32) (x1 : Vec Ideal S128x128 .f32) (j : S2000x128.Idx) :
    k0_pay1 (F := Ideal) x0 x1 j = ∑ k : Fin 128, x0 (ix2 (n0 := 2000) (j 0) k) * x1 (ix2 (n1 := 128) k (j 1)) := by
  obtain ⟨p, q, rfl⟩ : ∃ (p : Fin 2000) (q : Fin 128), j = ix2 p q := ⟨j 0, j 1, eq_ix2 j⟩
  unfold k0_pay1
  refine (Cert.LibMatmul.matmul_plain_apply (M := 2000) (K := 128) (N := 128) Facts₀.dot_S2000x128_S128x128_S2000x128_1_0_0_1_n_n_wf none _ _ p q).trans ?_
  rfl

/-- Where the three windows' blocks sit at grid point t: the left operand's and the result's are row block t, the weights'
    is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 2000·t … 2000·t + 1999 of its array. -/
theorem read_lhs (c : Dev nD) (t : Fin cfg0.N) (y : S2000x128.Idx) (i : S50000x128.Idx)
    (h0 : (i 0).val = t.val * 2000 + (y 0).val) (h1 : (i 1).val = (y 1).val) :
    (iblk0 V c 0 t : Vec Ideal S2000x128 .f32) y = (V c main_arg0 : S50000x128.Idx → EReal) i := by
  obtain ⟨e0, e1, -⟩ := idx_facts t
  unfold iblk0
  rw [View.read_apply]
  show V c main_arg0 _ = V c main_arg0 i
  refine congrArg (V c main_arg0) ?_
  funext a
  apply Fin.ext
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- The weights' block at every point is the whole matrix. -/
theorem read_rhs (c : Dev nD) (t : Fin cfg0.N) (y : S128x128.Idx) :
    (iblk0 V c 1 t : Vec Ideal S128x128 .f32) y = (V c main_arg2 : S128x128.Idx → EReal) y := by
  obtain ⟨-, -, e2, e3, -⟩ := idx_facts t
  unfold iblk0
  rw [View.read_apply]
  show V c main_arg2 _ = V c main_arg2 y
  refine congrArg (V c main_arg2) ?_
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- What the body stores at point t, entry by entry, is the product of the two whole arrays at the entry's place in the
    result array: the block's row p is row 2000·t + p. -/
theorem stored_eq (c : Dev nD) (t : Fin cfg0.N) (j : S2000x128.Idx) (i : S50000x128.Idx)
    (h0 : (i 0).val = t.val * 2000 + (j 0).val) (h1 : (i 1).val = (j 1).val) :
    k0_pay1 (F := Ideal) (iblk0 V c 0 t) (iblk0 V c 1 t) j
      = Cert.Gcn.prod (M := 50000) (K := 128) (N := 128) (V c main_arg0) (V c main_arg2) i := by
  obtain ⟨p', q', rfl⟩ : ∃ (p' : Fin 2000) (q' : Fin 128), j = ix2 p' q' := ⟨j 0, j 1, eq_ix2 j⟩
  obtain ⟨p, q, rfl⟩ : ∃ (p : Fin 50000) (q : Fin 128), i = ix2 p q := ⟨i 0, i 1, eq_ix2 i⟩
  obtain rfl : q = q' := Fin.ext h1
  refine (pay_apply _ _ _).trans ?_
  rw [Cert.Gcn.prod_apply]
  exact Finset.sum_congr rfl fun k _ => congrArg₂ (fun (a b : EReal) => a * b)
    (read_lhs V c t (ix2 p' k) (ix2 p k) h0 rfl) (read_rhs V c t (ix2 k q))

/-- WHAT POINT t WRITES BACK is block t of the product of the two arrays as the region finds them. -/
theorem flushed_eq (c : Dev nD) (t : Fin cfg0.N) :
    (dat0 V c).flushed 2 t = ((cfg0.win 2).blk t).view.read (Elt Ideal)
      (Cert.Gcn.prod (M := 50000) (K := 128) (N := 128) (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨-, -, -, -, e4, e5⟩ := idx_facts t
  funext j
  refine stored_eq V c t j _ ?_ ?_
  · show win0_2.index t (0 : Fin 2) * 2000 + 1 * (j 0).val = t.val * 2000 + (j 0).val; rw [e4]; omega
  · show win0_2.index t (1 : Fin 2) * 128 + 1 * (j 1).val = (j 1).val; rw [e5]; omega

/-- An index of the result array is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v28).slice (win0_2.rect t)).set ↔ _
  rw [View.set_slice_whole, Rect.mem_set_unit]
  exact Iff.rfl

/-- Row r of the result array is written back by point r / 2000: the 25 row blocks fill the array. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 25 := N_0
  obtain ⟨t, ht⟩ : ∃ t : Fin cfg0.N, t.val = (i 0).val / 2000 := ⟨⟨(i 0).val / 2000, by show _ < grid0.N; rw [hN]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; rw [e4, ht]; omega
  | ⟨1, _⟩ => show win0_2.index t (1 : Fin 2) * 128 ≤ (i 1).val ∧ (i 1).val < win0_2.index t (1 : Fin 2) * 128 + 128; rw [e5]; omega

/-- THE RESULT ARRAY after the region: the product of the two arrays the region was entered with. -/
theorem final (c : Dev nD) : (dat0 V c).arrAt 2 cfg0.N
    = Cert.Gcn.prod (M := 50000) (K := 128) (N := 128) (V c main_arg0) (V c main_arg2) :=
  (dat0 V c).arrAt_eq_of_cover 2 _ (fun t _ => flushed_eq V c t) cover

end Cert.KernelIdeal.Linear1

end
-- ==== Proof.Linear2.lean ====
/-
  The second linear transform, a · W2 with a the first layer's output, as the region that computes it leaves it: the
  region's result array is the product of the two arrays it was entered with, whatever they are. Each of the 25 grid
  points multiplies a block of 2000 rows by the whole weight matrix and writes the block back; the blocks fill the array.
-/
import proofs.«137684_j1357209665855_1_alg».proof.Proof.Gen.KernelIdeal.Frame
import proofs.«137684_j1357209665855_1_alg».proof.Proof.LibLayer
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Linear2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's one stored value at (p, q) of its block: row p of the left block against column q of the weights. The
    rounding of both operands to bf16 is the identity on the extended reals, and the accumulator is zero. -/
theorem pay_apply (x0 : Vec Ideal S2000x128 .f32) (x1 : Vec Ideal S128x64 .f32) (j : S2000x64.Idx) :
    k2_pay1 (F := Ideal) x0 x1 j = ∑ k : Fin 128, x0 (ix2 (n0 := 2000) (j 0) k) * x1 (ix2 (n1 := 64) k (j 1)) := by
  obtain ⟨p, q, rfl⟩ : ∃ (p : Fin 2000) (q : Fin 64), j = ix2 p q := ⟨j 0, j 1, eq_ix2 j⟩
  unfold k2_pay1
  simp only [shapeCast_self]
  refine (Cert.LibMatmul.matmul_plain_apply (M := 2000) (K := 128) (N := 64) Facts₀.dot_S2000x128_S128x64_S2000x64_1_0_0_1_n_n_wf none _ _ p q).trans ?_
  rfl

/-- Where the three windows' blocks sit at grid point t: the left operand's and the result's are row block t, the weights'
    is the whole matrix. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t is rows 2000·t … 2000·t + 1999 of its array. -/
theorem read_lhs (c : Dev nD) (t : Fin cfg2.N) (y : S2000x128.Idx) (i : S50000x128.Idx)
    (h0 : (i 0).val = t.val * 2000 + (y 0).val) (h1 : (i 1).val = (y 1).val) :
    (iblk2 V c 0 t : Vec Ideal S2000x128 .f32) y = (V c main_v44 : S50000x128.Idx → EReal) i := by
  obtain ⟨e0, e1, -⟩ := idx_facts t
  unfold iblk2
  rw [View.read_apply]
  show V c main_v44 _ = V c main_v44 i
  refine congrArg (V c main_v44) ?_
  funext a
  apply Fin.ext
  match a with
  | ⟨0, _⟩ => show win2_0.index t (0 : Fin 2) * 2000 + 1 * (y 0).val = (i 0).val; rw [e0, h0]; omega
  | ⟨1, _⟩ => show win2_0.index t (1 : Fin 2) * 128 + 1 * (y 1).val = (i 1).val; rw [e1, h1]; omega

/-- The weights' block at every point is the whole matrix. -/
theorem read_rhs (c : Dev nD) (t : Fin cfg2.N) (y : S128x64.Idx) :
    (iblk2 V c 1 t : Vec Ideal S128x64 .f32) y = (V c main_arg4 : S128x64.Idx → EReal) y := by
  obtain ⟨-, -, e2, e3, -⟩ := idx_facts t
  unfold iblk2
  rw [View.read_apply]
  show V c main_arg4 _ = V c main_arg4 y
  refine congrArg (V c main_arg4) ?_
  funext a
  apply Fin.ext
  match a with
  | ⟨0, _⟩ => show win2_1.index t (0 : Fin 2) * 128 + 1 * (y 0).val = (y 0).val; rw [e2]; omega
  | ⟨1, _⟩ => show win2_1.index t (1 : Fin 2) * 64 + 1 * (y 1).val = (y 1).val; rw [e3]; omega

/-- What the body stores at point t, entry by entry, is the product of the two whole arrays at the entry's place in the
    result array: the block's row p is row 2000·t + p. -/
theorem stored_eq (c : Dev nD) (t : Fin cfg2.N) (j : S2000x64.Idx) (i : S50000x64.Idx)
    (h0 : (i 0).val = t.val * 2000 + (j 0).val) (h1 : (i 1).val = (j 1).val) :
    k2_pay1 (F := Ideal) (iblk2 V c 0 t) (iblk2 V c 1 t) j
      = Cert.Gcn.prod (M := 50000) (K := 128) (N := 64) (V c main_v44) (V c main_arg4) i := by
  obtain ⟨p', q', rfl⟩ : ∃ (p' : Fin 2000) (q' : Fin 64), j = ix2 p' q' := ⟨j 0, j 1, eq_ix2 j⟩
  obtain ⟨p, q, rfl⟩ : ∃ (p : Fin 50000) (q : Fin 64), i = ix2 p q := ⟨i 0, i 1, eq_ix2 i⟩
  obtain rfl : q = q' := Fin.ext h1
  refine (pay_apply _ _ _).trans ?_
  rw [Cert.Gcn.prod_apply]
  exact Finset.sum_congr rfl fun k _ => congrArg₂ (fun (a b : EReal) => a * b)
    (read_lhs V c t (ix2 p' k) (ix2 p k) h0 rfl) (read_rhs V c t (ix2 k q))

/-- WHAT POINT t WRITES BACK is block t of the product of the two arrays as the region finds them. -/
theorem flushed_eq (c : Dev nD) (t : Fin cfg2.N) :
    (dat2 V c).flushed 2 t = ((cfg2.win 2).blk t).view.read (Elt Ideal)
      (Cert.Gcn.prod (M := 50000) (K := 128) (N := 64) (V c main_v44) (V c main_arg4)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x64) hz]
  obtain ⟨-, -, -, -, e4, e5⟩ := idx_facts t
  funext j
  refine stored_eq V c t j _ ?_ ?_
  · show win2_2.index t (0 : Fin 2) * 2000 + 1 * (j 0).val = t.val * 2000 + (j 0).val; rw [e4]; omega
  · show win2_2.index t (1 : Fin 2) * 64 + 1 * (j 1).val = (j 1).val; rw [e5]; omega

/-- An index of the result array is in point t's block iff each coordinate is in the block's range on its axis. -/
theorem mem_blk (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v45).slice (win2_2.rect t)).set ↔ _
  rw [View.set_slice_whole, Rect.mem_set_unit]
  exact Iff.rfl

/-- Row r of the result array is written back by point r / 2000: the 25 row blocks fill the array. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : grid2.N = 25 := N_2
  obtain ⟨t, ht⟩ : ∃ t : Fin cfg2.N, t.val = (i 0).val / 2000 := ⟨⟨(i 0).val / 2000, by show _ < grid2.N; rw [hN]; omega⟩, rfl⟩
  obtain ⟨-, -, -, -, e4, e5⟩ := idx_facts t
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; rw [e4, ht]; omega
  | ⟨1, _⟩ => show win2_2.index t (1 : Fin 2) * 64 ≤ (i 1).val ∧ (i 1).val < win2_2.index t (1 : Fin 2) * 64 + 64; rw [e5]; omega

/-- THE RESULT ARRAY after the region: the product of the two arrays the region was entered with. -/
theorem final (c : Dev nD) : (dat2 V c).arrAt 2 cfg2.N
    = Cert.Gcn.prod (M := 50000) (K := 128) (N := 64) (V c main_v44) (V c main_arg4) :=
  (dat2 V c).arrAt_eq_of_cover 2 _ (fun t _ => flushed_eq V c t) cover

end Cert.KernelIdeal.Linear2

end
-- ==== Proof.Close1.lean ====
/-
  The first layer's closing step as the region that computes it leaves it: the region's result array is
  max (agg + h · d + b, 0) of the four arrays it was entered with — the aggregate, the feature, the [50000, 1] column of row
  weights and the [1, 128] row of biases — whatever they are. Each of the 25 grid points does a block of 2000 rows; the blocks
  fill the array.
-/
import proofs.«137684_j1357209665855_1_alg».proof.Proof.Gen.KernelIdeal.Frame
import proofs.«137684_j1357209665855_1_alg».proof.Proof.LibLayer
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Close1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's one stored value at (p, q) of its block: the aggregate plus the feature times the row's weight (the
    [2000, 1] column laid along the columns) plus the column's bias (the [1, 128] row laid along the rows), clamped below at zero. -/
theorem pay_apply (v0 v2 : Vec Ideal S2000x128 .f32) (v4 : Vec Ideal S2000x1 .f32) (v6 : Vec Ideal S1x128 .f32) (p : Fin 2000) (q : Fin 128) :
    k1_pay1 (F := Ideal) v0 v2 v4 v6 (ix2 p q)
      = max (v0 (ix2 p q) + v2 (ix2 p q) * v4 (ix2 p (0 : Fin 1)) + v6 (ix2 (0 : Fin 1) q)) (Ideal.ofBits .f32 0x00000000#32) := by
  have e1 := Cert.LibColumn.broadcastTo_a1_ab_apply (a := 2000) (b := 128) v4 Facts₀.broadcasts_S2000x1_S2000x128 p q
  have e2 := broadcastTo_1b_ab_apply (a := 2000) (b := 128) v6 Facts₀.broadcasts_S1x128_S2000x128 p q
  unfold k1_pay1
  simp only [shapeCast_self]
  show max (v0 (ix2 p q) + v2 (ix2 p q) * broadcastTo S2000x128 v4 Facts₀.broadcasts_S2000x1_S2000x128 (ix2 p q)
      + broadcastTo S2000x128 v6 Facts₀.broadcasts_S1x128_S2000x128 (ix2 p q)) (Ideal.ofBits .f32 0x00000000#32) = _
  rw [e1, e2]

/-- Where the five windows' blocks sit at grid point t: the aggregate's, the feature's, the weight column's and the
    result's are row block t, the bias row's is the whole row. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point t is rows 2000·t … 2000·t + 1999 of its array. -/
theorem read_agg (c : Dev nD) (t : Fin cfg1.N) (y : S2000x128.Idx) (i : S50000x128.Idx)
    (h0 : (i 0).val = t.val * 2000 + (y 0).val) (h1 : (i 1).val = (y 1).val) :
    (iblk1 V c 0 t : Vec Ideal S2000x128 .f32) y = (V c main_v41 : S50000x128.Idx → EReal) i := by
  obtain ⟨e0, e1, -⟩ := idx_facts t
  unfold iblk1
  rw [View.read_apply]
  show V c main_v41 _ = V c main_v41 i
  refine congrArg (V c main_v41) ?_
  funext a
  apply Fin.ext
  match a with
  | ⟨0, _⟩ => show win1_0.index t (0 : Fin 2) * 2000 + 1 * (y 0).val = (i 0).val; rw [e0, h0]; omega
  | ⟨1, _⟩ => show win1_0.index t (1 : Fin 2) * 128 + 1 * (y 1).val = (i 1).val; rw [e1, h1]; omega

/-- The feature's block at point t is the same rows of its array. -/
theorem read_feat (c : Dev nD) (t : Fin cfg1.N) (y : S2000x128.Idx) (i : S50000x128.Idx)
    (h0 : (i 0).val = t.val * 2000 + (y 0).val) (h1 : (i 1).val = (y 1).val) :
    (iblk1 V c 1 t : Vec Ideal S2000x128 .f32) y = (V c main_v28 : S50000x128.Idx → EReal) i := by
  obtain ⟨-, -, e2, e3, -⟩ := idx_facts t
  unfold iblk1
  rw [View.read_apply]
  show V c main_v28 _ = V c main_v28 i
  refine congrArg (V c main_v28) ?_
  funext a
  apply Fin.ext
  match a with
  | ⟨0, _⟩ => show win1_1.index t (0 : Fin 2) * 2000 + 1 * (y 0).val = (i 0).val; rw [e2, h0]; omega
  | ⟨1, _⟩ => show win1_1.index t (1 : Fin 2) * 128 + 1 * (y 1).val = (i 1).val; rw [e3, h1]; omega

/-- The weight column's block at point t is the same rows of the [50000, 1] column. -/
theorem read_col (c : Dev nD) (t : Fin cfg1.N) (y : S2000x1.Idx) (i : S50000x1.Idx)
    (h0 : (i 0).val = t.val * 2000 + (y 0).val) (h1 : (i 1).val = (y 1).val) :
    (iblk1 V c 2 t : Vec Ideal S2000x1 .f32) y = (V c main_v42 : S50000x1.Idx → EReal) i := by
  obtain ⟨-, -, -, -, e4, e5, -⟩ := idx_facts t
  unfold iblk1
  rw [View.read_apply]
  show V c main_v42 _ = V c main_v42 i
  refine congrArg (V c main_v42) ?_
  funext a
  apply Fin.ext
  match a with
  | ⟨0, _⟩ => show win1_2.index t (0 : Fin 2) * 2000 + 1 * (y 0).val = (i 0).val; rw [e4, h0]; omega
  | ⟨1, _⟩ => show win1_2.index t (1 : Fin 2) * 1 + 1 * (y 1).val = (i 1).val; rw [e5, h1]; omega

/-- The bias row's block at every point is the whole row. -/
theorem read_row (c : Dev nD) (t : Fin cfg1.N) (y : S1x128.Idx) :
    (iblk1 V c 3 t : Vec Ideal S1x128 .f32) y = (V c main_v43 : S1x128.Idx → EReal) y := by
  obtain ⟨-, -, -, -, -, -, e6, e7, -⟩ := idx_facts t
  unfold iblk1
  rw [View.read_apply]
  show V c main_v43 _ = V c main_v43 y
  refine congrArg (V c main_v43) ?_
  funext a
  apply Fin.ext
  match a with
  | ⟨0, _⟩ => show win1_3.index t (0 : Fin 2) * 1 + 1 * (y 0).val = (y 0).val; rw [e6]; omega
  | ⟨1, _⟩ => show win1_3.index t (1 : Fin 2) * 128 + 1 * (y 1).val = (y 1).val; rw [e7]; omega

/-- What the body stores at point t, entry by entry, is the closing step of the four whole arrays at the entry's place in
    the result array: the block's row p is row 2000·t + p. -/
theorem stored_eq (c : Dev nD) (t : Fin cfg1.N) (j : S2000x128.Idx) (i : S50000x128.Idx)
    (h0 : (i 0).val = t.val * 2000 + (j 0).val) (h1 : (i 1).val = (j 1).val) :
    k1_pay1 (F := Ideal) (iblk1 V c 0 t) (iblk1 V c 1 t) (iblk1 V c 2 t) (iblk1 V c 3 t) j
      = Cert.Gcn.clamp (Cert.Gcn.closeCols (n := 50000) (f := 128) (V c main_v41) (V c main_v28) (V c main_v42) (V c main_v43)) i := by
  obtain ⟨p', q', rfl⟩ : ∃ (p' : Fin 2000) (q' : Fin 128), j = ix2 p' q' := ⟨j 0, j 1, eq_ix2 j⟩
  obtain ⟨p, q, rfl⟩ : ∃ (p : Fin 50000) (q : Fin 128), i = ix2 p q := ⟨i 0, i 1, eq_ix2 i⟩
  obtain rfl : q = q' := Fin.ext h1
  refine (pay_apply _ _ _ _ p' q).trans ?_
  rw [read_agg V c t (ix2 p' q) (ix2 p q) h0 rfl, read_feat V c t (ix2 p' q) (ix2 p q) h0 rfl,
    read_col V c t (ix2 p' (0 : Fin 1)) (ix2 p (0 : Fin 1)) h0 rfl, read_row V c t (ix2 (0 : Fin 1) q)]
  rfl

/-- WHAT POINT t WRITES BACK is block t of the closing step of the four arrays as the region finds them. -/
theorem flushed_eq (c : Dev nD) (t : Fin cfg1.N) :
    (dat1 V c).flushed 4 t = ((cfg1.win 4).blk t).view.read (Elt Ideal)
      (Cert.Gcn.clamp (Cert.Gcn.closeCols (n := 50000) (f := 128) (V c main_v41) (V c main_v28) (V c main_v42) (V c main_v43))) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz, View.ld_unit_zero (S := S1x128) hz]
  obtain ⟨-, -, -, -, -, -, -, -, e8, e9⟩ := idx_facts t
  funext j
  refine stored_eq V c t j _ ?_ ?_
  · show win1_4.index t (0 : Fin 2) * 2000 + 1 * (j 0).val = t.val * 2000 + (j 0).val; rw [e8]; omega
  · show win1_4.index t (1 : Fin 2) * 128 + 1 * (j 1).val = (j 1).val; rw [e9]; omega

/-- An index of the result array is in point t's block iff each coordinate is in the block's range on its axis. -/
theorem mem_blk (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v44).slice (win1_4.rect t)).set ↔ _
  rw [View.set_slice_whole, Rect.mem_set_unit]
  exact Iff.rfl

/-- Row r of the result array is written back by point r / 2000: the 25 row blocks fill the array. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : grid1.N = 25 := N_1
  obtain ⟨t, ht⟩ : ∃ t : Fin cfg1.N, t.val = (i 0).val / 2000 := ⟨⟨(i 0).val / 2000, by show _ < grid1.N; rw [hN]; omega⟩, rfl⟩
  obtain ⟨-, -, -, -, -, -, -, -, e8, e9⟩ := idx_facts t
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; rw [e8, ht]; omega
  | ⟨1, _⟩ => show win1_4.index t (1 : Fin 2) * 128 ≤ (i 1).val ∧ (i 1).val < win1_4.index t (1 : Fin 2) * 128 + 128; rw [e9]; omega

/-- THE RESULT ARRAY after the region: the closing step of the four arrays the region was entered with. -/
theorem final (c : Dev nD) : (dat1 V c).arrAt 4 cfg1.N
    = Cert.Gcn.clamp (Cert.Gcn.closeCols (n := 50000) (f := 128) (V c main_v41) (V c main_v28) (V c main_v42) (V c main_v43)) :=
  (dat1 V c).arrAt_eq_of_cover 4 _ (fun t _ => flushed_eq V c t) cover

end Cert.KernelIdeal.Close1

end
-- ==== Proof.Close2.lean ====
/-
  The second layer's closing step as the region that computes it leaves it: the region's result array is
  agg + h · d + b of the four arrays it was entered with — the aggregate, the feature, the [50000, 1] column of row weights
  and the [1, 64] row of biases — whatever they are. Each of the 25 grid points does a block of 2000 rows; the blocks fill the
  array.
-/
import proofs.«137684_j1357209665855_1_alg».proof.Proof.Gen.KernelIdeal.Frame
import proofs.«137684_j1357209665855_1_alg».proof.Proof.LibLayer
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Close2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's one stored value at (p, q) of its block: the aggregate plus the feature times the row's weight (the
    [2000, 1] column laid along the columns) plus the column's bias (the [1, 64] row laid along the rows). -/
theorem pay_apply (v0 v2 : Vec Ideal S2000x64 .f32) (v4 : Vec Ideal S2000x1 .f32) (v6 : Vec Ideal S1x64 .f32) (p : Fin 2000) (q : Fin 64) :
    k3_pay1 (F := Ideal) v0 v2 v4 v6 (ix2 p q)
      = v0 (ix2 p q) + v2 (ix2 p q) * v4 (ix2 p (0 : Fin 1)) + v6 (ix2 (0 : Fin 1) q) := by
  have e1 := Cert.LibColumn.broadcastTo_a1_ab_apply (a := 2000) (b := 64) v4 Facts₀.broadcasts_S2000x1_S2000x64 p q
  have e2 := broadcastTo_1b_ab_apply (a := 2000) (b := 64) v6 Facts₀.broadcasts_S1x64_S2000x64 p q
  unfold k3_pay1
  simp only [shapeCast_self]
  show v0 (ix2 p q) + v2 (ix2 p q) * broadcastTo S2000x64 v4 Facts₀.broadcasts_S2000x1_S2000x64 (ix2 p q)
      + broadcastTo S2000x64 v6 Facts₀.broadcasts_S1x64_S2000x64 (ix2 p q) = _
  rw [e1, e2]

/-- Where the five windows' blocks sit at grid point t: the aggregate's, the feature's, the weight column's and the
    result's are row block t, the bias row's is the whole row. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregate's block at point t is rows 2000·t … 2000·t + 1999 of its array. -/
theorem read_agg (c : Dev nD) (t : Fin cfg3.N) (y : S2000x64.Idx) (i : S50000x64.Idx)
    (h0 : (i 0).val = t.val * 2000 + (y 0).val) (h1 : (i 1).val = (y 1).val) :
    (iblk3 V c 0 t : Vec Ideal S2000x64 .f32) y = (V c main_v58 : S50000x64.Idx → EReal) i := by
  obtain ⟨e0, e1, -⟩ := idx_facts t
  unfold iblk3
  rw [View.read_apply]
  show V c main_v58 _ = V c main_v58 i
  refine congrArg (V c main_v58) ?_
  funext a
  apply Fin.ext
  match a with
  | ⟨0, _⟩ => show win3_0.index t (0 : Fin 2) * 2000 + 1 * (y 0).val = (i 0).val; rw [e0, h0]; omega
  | ⟨1, _⟩ => show win3_0.index t (1 : Fin 2) * 64 + 1 * (y 1).val = (i 1).val; rw [e1, h1]; omega

/-- The feature's block at point t is the same rows of its array. -/
theorem read_feat (c : Dev nD) (t : Fin cfg3.N) (y : S2000x64.Idx) (i : S50000x64.Idx)
    (h0 : (i 0).val = t.val * 2000 + (y 0).val) (h1 : (i 1).val = (y 1).val) :
    (iblk3 V c 1 t : Vec Ideal S2000x64 .f32) y = (V c main_v45 : S50000x64.Idx → EReal) i := by
  obtain ⟨-, -, e2, e3, -⟩ := idx_facts t
  unfold iblk3
  rw [View.read_apply]
  show V c main_v45 _ = V c main_v45 i
  refine congrArg (V c main_v45) ?_
  funext a
  apply Fin.ext
  match a with
  | ⟨0, _⟩ => show win3_1.index t (0 : Fin 2) * 2000 + 1 * (y 0).val = (i 0).val; rw [e2, h0]; omega
  | ⟨1, _⟩ => show win3_1.index t (1 : Fin 2) * 64 + 1 * (y 1).val = (i 1).val; rw [e3, h1]; omega

/-- The weight column's block at point t is the same rows of the [50000, 1] column. -/
theorem read_col (c : Dev nD) (t : Fin cfg3.N) (y : S2000x1.Idx) (i : S50000x1.Idx)
    (h0 : (i 0).val = t.val * 2000 + (y 0).val) (h1 : (i 1).val = (y 1).val) :
    (iblk3 V c 2 t : Vec Ideal S2000x1 .f32) y = (V c main_v59 : S50000x1.Idx → EReal) i := by
  obtain ⟨-, -, -, -, e4, e5, -⟩ := idx_facts t
  unfold iblk3
  rw [View.read_apply]
  show V c main_v59 _ = V c main_v59 i
  refine congrArg (V c main_v59) ?_
  funext a
  apply Fin.ext
  match a with
  | ⟨0, _⟩ => show win3_2.index t (0 : Fin 2) * 2000 + 1 * (y 0).val = (i 0).val; rw [e4, h0]; omega
  | ⟨1, _⟩ => show win3_2.index t (1 : Fin 2) * 1 + 1 * (y 1).val = (i 1).val; rw [e5, h1]; omega

/-- The bias row's block at every point is the whole row. -/
theorem read_row (c : Dev nD) (t : Fin cfg3.N) (y : S1x64.Idx) :
    (iblk3 V c 3 t : Vec Ideal S1x64 .f32) y = (V c main_v60 : S1x64.Idx → EReal) y := by
  obtain ⟨-, -, -, -, -, -, e6, e7, -⟩ := idx_facts t
  unfold iblk3
  rw [View.read_apply]
  show V c main_v60 _ = V c main_v60 y
  refine congrArg (V c main_v60) ?_
  funext a
  apply Fin.ext
  match a with
  | ⟨0, _⟩ => show win3_3.index t (0 : Fin 2) * 1 + 1 * (y 0).val = (y 0).val; rw [e6]; omega
  | ⟨1, _⟩ => show win3_3.index t (1 : Fin 2) * 64 + 1 * (y 1).val = (y 1).val; rw [e7]; omega

/-- What the body stores at point t, entry by entry, is the closing step of the four whole arrays at the entry's place in
    the result array: the block's row p is row 2000·t + p. -/
theorem stored_eq (c : Dev nD) (t : Fin cfg3.N) (j : S2000x64.Idx) (i : S50000x64.Idx)
    (h0 : (i 0).val = t.val * 2000 + (j 0).val) (h1 : (i 1).val = (j 1).val) :
    k3_pay1 (F := Ideal) (iblk3 V c 0 t) (iblk3 V c 1 t) (iblk3 V c 2 t) (iblk3 V c 3 t) j
      = Cert.Gcn.closeCols (n := 50000) (f := 64) (V c main_v58) (V c main_v45) (V c main_v59) (V c main_v60) i := by
  obtain ⟨p', q', rfl⟩ : ∃ (p' : Fin 2000) (q' : Fin 64), j = ix2 p' q' := ⟨j 0, j 1, eq_ix2 j⟩
  obtain ⟨p, q, rfl⟩ : ∃ (p : Fin 50000) (q : Fin 64), i = ix2 p q := ⟨i 0, i 1, eq_ix2 i⟩
  obtain rfl : q = q' := Fin.ext h1
  refine (pay_apply _ _ _ _ p' q).trans ?_
  rw [read_agg V c t (ix2 p' q) (ix2 p q) h0 rfl, read_feat V c t (ix2 p' q) (ix2 p q) h0 rfl,
    read_col V c t (ix2 p' (0 : Fin 1)) (ix2 p (0 : Fin 1)) h0 rfl, read_row V c t (ix2 (0 : Fin 1) q)]
  rfl

/-- WHAT POINT t WRITES BACK is block t of the closing step of the four arrays as the region finds them. -/
theorem flushed_eq (c : Dev nD) (t : Fin cfg3.N) :
    (dat3 V c).flushed 4 t = ((cfg3.win 4).blk t).view.read (Elt Ideal)
      (Cert.Gcn.closeCols (n := 50000) (f := 64) (V c main_v58) (V c main_v45) (V c main_v59) (V c main_v60)) := by
  show (cfg3.win 4).cut (grid3.coords t) ((dat3 V c).after 4 t) = _
  rw [after3_4]
  unfold out3_4
  rw [View.canon_unit_zero hz]
  simp only [View.ld_unit_zero (S := S2000x64) hz, View.ld_unit_zero (S := S2000x1) hz, View.ld_unit_zero (S := S1x64) hz]
  obtain ⟨-, -, -, -, -, -, -, -, e8, e9⟩ := idx_facts t
  funext j
  refine stored_eq V c t j _ ?_ ?_
  · show win3_4.index t (0 : Fin 2) * 2000 + 1 * (j 0).val = t.val * 2000 + (j 0).val; rw [e8]; omega
  · show win3_4.index t (1 : Fin 2) * 64 + 1 * (j 1).val = (j 1).val; rw [e9]; omega

/-- An index of the result array is in point t's block iff each coordinate is in the block's range on its axis. -/
theorem mem_blk (t : Fin cfg3.N) (i : S50000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v61).slice (win3_4.rect t)).set ↔ _
  rw [View.set_slice_whole, Rect.mem_set_unit]
  exact Iff.rfl

/-- Row r of the result array is written back by point r / 2000: the 25 row blocks fill the array. -/
theorem cover (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  have hN : grid3.N = 25 := N_3
  obtain ⟨t, ht⟩ : ∃ t : Fin cfg3.N, t.val = (i 0).val / 2000 := ⟨⟨(i 0).val / 2000, by show _ < grid3.N; rw [hN]; omega⟩, rfl⟩
  obtain ⟨-, -, -, -, -, -, -, -, e8, e9⟩ := idx_facts t
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; rw [e8, ht]; omega
  | ⟨1, _⟩ => show win3_4.index t (1 : Fin 2) * 64 ≤ (i 1).val ∧ (i 1).val < win3_4.index t (1 : Fin 2) * 64 + 64; rw [e9]; omega

/-- THE RESULT ARRAY after the region: the closing step of the four arrays the region was entered with. -/
theorem final (c : Dev nD) : (dat3 V c).arrAt 4 cfg3.N
    = Cert.Gcn.closeCols (n := 50000) (f := 64) (V c main_v58) (V c main_v45) (V c main_v59) (V c main_v60) :=
  (dat3 V c).arrAt_eq_of_cover 4 _ (fun t _ => flushed_eq V c t) cover

end Cert.KernelIdeal.Close2

end
-- ==== Proof.KernelValue.lean ====
/-
  The idealized kernel's result array as one function of the six arguments: the boundary contents folded through @main.
  After the first stretch the sources, targets, edge weights and reciprocal degree are the host functions of the edge list
  and the arguments are as launched; no region and no later stretch writes any of them, so each is carried unchanged to
  where it is read. The first region leaves x · W1; the second stretch its aggregate, the reciprocal degree as a column and
  the bias as a row; the second region the first layer's output; the third region that output times W2; the third stretch
  the 64-column aggregate, column and row; the last region the network's output.
-/
import proofs.«137684_j1357209665855_1_alg».proof.Proof.Gen.KernelIdeal.Frame
import proofs.«137684_j1357209665855_1_alg».proof.Proof.HostStretches
import proofs.«137684_j1357209665855_1_alg».proof.Proof.Linear1
import proofs.«137684_j1357209665855_1_alg».proof.Proof.Linear2
import proofs.«137684_j1357209665855_1_alg».proof.Proof.Close1
import proofs.«137684_j1357209665855_1_alg».proof.Proof.Close2

set_option maxRecDepth 16384

noncomputable section

namespace Cert.KernelIdeal.Whole

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## After the first stretch -/

theorem at1_v1 : W1 m ρ c (Proc.devRef .tc main_v1) = Glue.src (m ((c.tc : Thread nD τ).loc main_arg1)) := Stretch.first_src (W0 m ρ c)
theorem at1_v3 : W1 m ρ c (Proc.devRef .tc main_v3) = Glue.dst (m ((c.tc : Thread nD τ).loc main_arg1)) := Stretch.first_dst (W0 m ρ c)
theorem at1_v25 : W1 m ρ c (Proc.devRef .tc main_v25) = Glue.weight (Glue.src (m ((c.tc : Thread nD τ).loc main_arg1))) (Glue.dst (m ((c.tc : Thread nD τ).loc main_arg1))) := Stretch.first_weight (W0 m ρ c)
theorem at1_v27 : W1 m ρ c (Proc.devRef .tc main_v27) = Glue.invdeg (Glue.dst (m ((c.tc : Thread nD τ).loc main_arg1))) := Stretch.first_invdeg (W0 m ρ c)
theorem at1_arg0 : W1 m ρ c (Proc.devRef .tc main_arg0) = m ((c.tc : Thread nD τ).loc main_arg0) := Stretch.first_keep_arg0 (W0 m ρ c)
theorem at1_arg2 : W1 m ρ c (Proc.devRef .tc main_arg2) = m ((c.tc : Thread nD τ).loc main_arg2) := Stretch.first_keep_arg2 (W0 m ρ c)
theorem at1_arg3 : W1 m ρ c (Proc.devRef .tc main_arg3) = m ((c.tc : Thread nD τ).loc main_arg3) := Stretch.first_keep_arg3 (W0 m ρ c)
theorem at1_arg4 : W1 m ρ c (Proc.devRef .tc main_arg4) = m ((c.tc : Thread nD τ).loc main_arg4) := Stretch.first_keep_arg4 (W0 m ρ c)
theorem at1_arg5 : W1 m ρ c (Proc.devRef .tc main_arg5) = m ((c.tc : Thread nD τ).loc main_arg5) := Stretch.first_keep_arg5 (W0 m ρ c)

/-! ## Carried through the first region, the second stretch, the next two regions -/

theorem at2_v1 : W2 m ρ c (Proc.devRef .tc main_v1) = Glue.src (m ((c.tc : Thread nD τ).loc main_arg1)) := (W2_of_ne m ρ c main_v1 (by decide)).trans (at1_v1 m ρ c)
theorem at2_v3 : W2 m ρ c (Proc.devRef .tc main_v3) = Glue.dst (m ((c.tc : Thread nD τ).loc main_arg1)) := (W2_of_ne m ρ c main_v3 (by decide)).trans (at1_v3 m ρ c)
theorem at2_v25 : W2 m ρ c (Proc.devRef .tc main_v25) = Glue.weight (Glue.src (m ((c.tc : Thread nD τ).loc main_arg1))) (Glue.dst (m ((c.tc : Thread nD τ).loc main_arg1))) := (W2_of_ne m ρ c main_v25 (by decide)).trans (at1_v25 m ρ c)
theorem at2_v27 : W2 m ρ c (Proc.devRef .tc main_v27) = Glue.invdeg (Glue.dst (m ((c.tc : Thread nD τ).loc main_arg1))) := (W2_of_ne m ρ c main_v27 (by decide)).trans (at1_v27 m ρ c)
theorem at2_arg3 : W2 m ρ c (Proc.devRef .tc main_arg3) = m ((c.tc : Thread nD τ).loc main_arg3) := (W2_of_ne m ρ c main_arg3 (by decide)).trans (at1_arg3 m ρ c)
theorem at2_arg4 : W2 m ρ c (Proc.devRef .tc main_arg4) = m ((c.tc : Thread nD τ).loc main_arg4) := (W2_of_ne m ρ c main_arg4 (by decide)).trans (at1_arg4 m ρ c)
theorem at2_arg5 : W2 m ρ c (Proc.devRef .tc main_arg5) = m ((c.tc : Thread nD τ).loc main_arg5) := (W2_of_ne m ρ c main_arg5 (by decide)).trans (at1_arg5 m ρ c)
theorem at3_v1 : W3 m ρ c (Proc.devRef .tc main_v1) = Glue.src (m ((c.tc : Thread nD τ).loc main_arg1)) := (Stretch.second_keep_v1 (W2 m ρ c)).trans (at2_v1 m ρ c)
theorem at3_v3 : W3 m ρ c (Proc.devRef .tc main_v3) = Glue.dst (m ((c.tc : Thread nD τ).loc main_arg1)) := (Stretch.second_keep_v3 (W2 m ρ c)).trans (at2_v3 m ρ c)
theorem at3_v25 : W3 m ρ c (Proc.devRef .tc main_v25) = Glue.weight (Glue.src (m ((c.tc : Thread nD τ).loc main_arg1))) (Glue.dst (m ((c.tc : Thread nD τ).loc main_arg1))) := (Stretch.second_keep_v25 (W2 m ρ c)).trans (at2_v25 m ρ c)
theorem at3_v27 : W3 m ρ c (Proc.devRef .tc main_v27) = Glue.invdeg (Glue.dst (m ((c.tc : Thread nD τ).loc main_arg1))) := (Stretch.second_keep_v27 (W2 m ρ c)).trans (at2_v27 m ρ c)
theorem at3_arg4 : W3 m ρ c (Proc.devRef .tc main_arg4) = m ((c.tc : Thread nD τ).loc main_arg4) := (Stretch.second_keep_arg4 (W2 m ρ c)).trans (at2_arg4 m ρ c)
theorem at3_arg5 : W3 m ρ c (Proc.devRef .tc main_arg5) = m ((c.tc : Thread nD τ).loc main_arg5) := (Stretch.second_keep_arg5 (W2 m ρ c)).trans (at2_arg5 m ρ c)
theorem at4_v1 : W4 m ρ c (Proc.devRef .tc main_v1) = Glue.src (m ((c.tc : Thread nD τ).loc main_arg1)) := (W4_of_ne m ρ c main_v1 (by decide)).trans (at3_v1 m ρ c)
theorem at4_v3 : W4 m ρ c (Proc.devRef .tc main_v3) = Glue.dst (m ((c.tc : Thread nD τ).loc main_arg1)) := (W4_of_ne m ρ c main_v3 (by decide)).trans (at3_v3 m ρ c)
theorem at4_v25 : W4 m ρ c (Proc.devRef .tc main_v25) = Glue.weight (Glue.src (m ((c.tc : Thread nD τ).loc main_arg1))) (Glue.dst (m ((c.tc : Thread nD τ).loc main_arg1))) := (W4_of_ne m ρ c main_v25 (by decide)).trans (at3_v25 m ρ c)
theorem at4_v27 : W4 m ρ c (Proc.devRef .tc main_v27) = Glue.invdeg (Glue.dst (m ((c.tc : Thread nD τ).loc main_arg1))) := (W4_of_ne m ρ c main_v27 (by decide)).trans (at3_v27 m ρ c)
theorem at4_arg4 : W4 m ρ c (Proc.devRef .tc main_arg4) = m ((c.tc : Thread nD τ).loc main_arg4) := (W4_of_ne m ρ c main_arg4 (by decide)).trans (at3_arg4 m ρ c)
theorem at4_arg5 : W4 m ρ c (Proc.devRef .tc main_arg5) = m ((c.tc : Thread nD τ).loc main_arg5) := (W4_of_ne m ρ c main_arg5 (by decide)).trans (at3_arg5 m ρ c)
theorem at5_v1 : W5 m ρ c (Proc.devRef .tc main_v1) = Glue.src (m ((c.tc : Thread nD τ).loc main_arg1)) := (W5_of_ne m ρ c main_v1 (by decide)).trans (at4_v1 m ρ c)
theorem at5_v3 : W5 m ρ c (Proc.devRef .tc main_v3) = Glue.dst (m ((c.tc : Thread nD τ).loc main_arg1)) := (W5_of_ne m ρ c main_v3 (by decide)).trans (at4_v3 m ρ c)
theorem at5_v25 : W5 m ρ c (Proc.devRef .tc main_v25) = Glue.weight (Glue.src (m ((c.tc : Thread nD τ).loc main_arg1))) (Glue.dst (m ((c.tc : Thread nD τ).loc main_arg1))) := (W5_of_ne m ρ c main_v25 (by decide)).trans (at4_v25 m ρ c)
theorem at5_v27 : W5 m ρ c (Proc.devRef .tc main_v27) = Glue.invdeg (Glue.dst (m ((c.tc : Thread nD τ).loc main_arg1))) := (W5_of_ne m ρ c main_v27 (by decide)).trans (at4_v27 m ρ c)
theorem at5_arg5 : W5 m ρ c (Proc.devRef .tc main_arg5) = m ((c.tc : Thread nD τ).loc main_arg5) := (W5_of_ne m ρ c main_arg5 (by decide)).trans (at4_arg5 m ρ c)

/-! ## The first layer -/

/-- The first region leaves x · W1. -/
theorem prod1 : W2 m ρ c (Proc.devRef .tc main_v28) = Cert.Gcn.prod (M := 50000) (K := 128) (N := 128) (m ((c.tc : Thread nD τ).loc main_arg0)) (m ((c.tc : Thread nD τ).loc main_arg2)) :=
  (W2_arr m ρ c 2).trans ((Linear1.final (V1 m ρ) c).trans
    (congrArg₂ (Cert.Gcn.prod (M := 50000) (K := 128) (N := 128)) (at1_arg0 m ρ c) (at1_arg2 m ρ c)))

/-- The second stretch leaves the product alone, … -/
theorem feat1 : V3 m ρ c main_v28 = Cert.Gcn.prod (M := 50000) (K := 128) (N := 128) (m ((c.tc : Thread nD τ).loc main_arg0)) (m ((c.tc : Thread nD τ).loc main_arg2)) := (Stretch.second_keep_v28 (W2 m ρ c)).trans (prod1 m ρ c)

/-- … aggregates it, … -/
theorem agg1 : V3 m ρ c main_v41 = Glue.agg128 (Cert.Gcn.prod (M := 50000) (K := 128) (N := 128) (m ((c.tc : Thread nD τ).loc main_arg0)) (m ((c.tc : Thread nD τ).loc main_arg2))) (Glue.src (m ((c.tc : Thread nD τ).loc main_arg1))) (Glue.dst (m ((c.tc : Thread nD τ).loc main_arg1))) (Glue.weight (Glue.src (m ((c.tc : Thread nD τ).loc main_arg1))) (Glue.dst (m ((c.tc : Thread nD τ).loc main_arg1)))) := by
  refine (Stretch.second_agg (W2 m ρ c)).trans ?_
  rw [prod1 m ρ c, at2_v1 m ρ c, at2_v3 m ρ c, at2_v25 m ρ c]

/-- … lays the reciprocal degree out as a column … -/
theorem col1 : V3 m ρ c main_v42 = shapeCast S50000x1 (Glue.invdeg (Glue.dst (m ((c.tc : Thread nD τ).loc main_arg1)))) Facts₀.shapeCasts_S50000_S50000x1 := by
  refine (Stretch.second_col (W2 m ρ c)).trans ?_
  rw [at2_v27 m ρ c]

/-- … and the bias as a row. -/
theorem row1 : V3 m ρ c main_v43 = shapeCast S1x128 (m ((c.tc : Thread nD τ).loc main_arg3)) Facts₀.shapeCasts_S128_S1x128 := by
  refine (Stretch.second_row (W2 m ρ c)).trans ?_
  rw [at2_arg3 m ρ c]

/-- The second region leaves the first layer's output. -/
theorem hid : W4 m ρ c (Proc.devRef .tc main_v44) = Glue.hidden (m ((c.tc : Thread nD τ).loc main_arg0)) (m ((c.tc : Thread nD τ).loc main_arg1)) (m ((c.tc : Thread nD τ).loc main_arg2)) (m ((c.tc : Thread nD τ).loc main_arg3)) := by
  refine (W4_arr m ρ c 4).trans ((Close1.final (V3 m ρ) c).trans ?_)
  rw [agg1 m ρ c, feat1 m ρ c, col1 m ρ c, row1 m ρ c, Cert.Gcn.closeCols_cast]
  rfl

/-! ## The second layer -/

/-- The third region leaves the first layer's output times W2. -/
theorem prod2 : W5 m ρ c (Proc.devRef .tc main_v45) = Cert.Gcn.prod (M := 50000) (K := 128) (N := 64) (Glue.hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) :=
  (W5_arr m ρ c 2).trans ((Linear2.final (V4 m ρ) c).trans
    (congrArg₂ (Cert.Gcn.prod (M := 50000) (K := 128) (N := 64)) (hid m ρ c) (at4_arg4 m ρ c)))

theorem feat2 : V6 m ρ c main_v45 = Cert.Gcn.prod (M := 50000) (K := 128) (N := 64) (Glue.hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := (Stretch.third_keep_v45 (W5 m ρ c)).trans (prod2 m ρ c)

theorem agg2 : V6 m ρ c main_v58 = Glue.agg64 (Cert.Gcn.prod (M := 50000) (K := 128) (N := 64) (Glue.hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (Glue.src (m ((c.tc : Thread nD τ).loc main_arg1))) (Glue.dst (m ((c.tc : Thread nD τ).loc main_arg1))) (Glue.weight (Glue.src (m ((c.tc : Thread nD τ).loc main_arg1))) (Glue.dst (m ((c.tc : Thread nD τ).loc main_arg1)))) := by
  refine (Stretch.third_agg (W5 m ρ c)).trans ?_
  rw [prod2 m ρ c, at5_v1 m ρ c, at5_v3 m ρ c, at5_v25 m ρ c]

theorem col2 : V6 m ρ c main_v59 = shapeCast S50000x1 (Glue.invdeg (Glue.dst (m ((c.tc : Thread nD τ).loc main_arg1)))) Facts₀.shapeCasts_S50000_S50000x1 := by
  refine (Stretch.third_col (W5 m ρ c)).trans ?_
  rw [at5_v27 m ρ c]

theorem row2 : V6 m ρ c main_v60 = shapeCast S1x64 (m ((c.tc : Thread nD τ).loc main_arg5)) Facts₀.shapeCasts_S64_S1x64 := by
  refine (Stretch.third_row (W5 m ρ c)).trans ?_
  rw [at5_arg5 m ρ c]

/-- THE RESULT: the last region leaves the network's output. -/
theorem value : W7 m ρ c (Proc.devRef .tc main_v61)
    = Glue.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W7_arr m ρ c 4).trans ((Close2.final (V6 m ρ) c).trans ?_)
  rw [agg2 m ρ c, feat2 m ρ c, col2 m ρ c, row2 m ρ c, Cert.Gcn.closeCols_cast]
  rfl

end Cert.KernelIdeal.Whole

end
-- ==== Proof.RefValue.lean ====
/-
  The reference's result as the same function of the six arguments. Its run's term spells the network out on the host:
  x · W1 as a dot_general, the aggregate, h · (1 / deg) and the bias through broadcasts, the clamp as a maximum with the zero
  constant, then the second layer the same way, recomputing the degree. The dot_general is the product, the broadcast
  spelling is the closing step, the maximum with zero is the clamp; what is left — the slices of the edge list, the
  scatter-adds and the gathers — is operation for operation what the kernel's host stretches compute.
-/
import proofs.«137684_j1357209665855_1_alg».proof.Proof.Gen.ReferenceIdeal.Run
import proofs.«137684_j1357209665855_1_alg».proof.Proof.Glue

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem

variable (m : (ℓ : Loc nD τ sig) → Buf (Elt Ideal) ℓ) (c : Dev nD)

theorem result_eq : res_main_v98 (F := Ideal) m c
    = Cert.KernelIdeal.Glue.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have hd1 : ∀ (x : FVec Ideal S50000x128 .f32) (w : FVec Ideal S128x128 .f32),
      Host.dotGeneral (F := Ideal) dot_S50000x128_S128x128_S50000x128_1_0_0_1_n_n none x w = Cert.Gcn.prod (M := 50000) (K := 128) (N := 128) x w :=
    fun x w => Cert.Gcn.dotGeneral_plain (M := 50000) (K := 128) (N := 128) Facts₀.dot_S50000x128_S128x128_S50000x128_1_0_0_1_n_n_wf none x w
  have hd2 : ∀ (x : FVec Ideal S50000x128 .f32) (w : FVec Ideal S128x64 .f32),
      Host.dotGeneral (F := Ideal) dot_S50000x128_S128x64_S50000x64_1_0_0_1_n_n none x w = Cert.Gcn.prod (M := 50000) (K := 128) (N := 64) x w :=
    fun x w => Cert.Gcn.dotGeneral_plain (M := 50000) (K := 128) (N := 64) Facts₀.dot_S50000x128_S128x64_S50000x64_1_0_0_1_n_n_wf none x w
  have hc1 : ∀ (agg h : FVec Ideal S50000x128 .f32) (d : FVec Ideal S50000 .f32) (b : FVec Ideal S128 .f32),
      addf (addf agg (mulf h (broadcastInDim S50000x128 ![0, 1] Facts₀.bcast_S50000x1_S50000x128_0_1 (broadcastInDim S50000x1 ![0] Facts₀.bcast_S50000_S50000x1_0 d))))
        (broadcastInDim S50000x128 ![0, 1] Facts₀.bcast_S1x128_S50000x128_0_1 (broadcastInDim S1x128 ![1] Facts₀.bcast_S128_S1x128_1 b))
      = Cert.Gcn.close (n := 50000) (f := 128) agg h d b :=
    fun agg h d b => Cert.Gcn.host_close (n := 50000) (f := 128) agg h d b _ _ _ _
  have hc2 : ∀ (agg h : FVec Ideal S50000x64 .f32) (d : FVec Ideal S50000 .f32) (b : FVec Ideal S64 .f32),
      addf (addf agg (mulf h (broadcastInDim S50000x64 ![0, 1] Facts₀.bcast_S50000x1_S50000x64_0_1 (broadcastInDim S50000x1 ![0] Facts₀.bcast_S50000_S50000x1_0 d))))
        (broadcastInDim S50000x64 ![0, 1] Facts₀.bcast_S1x64_S50000x64_0_1 (broadcastInDim S1x64 ![1] Facts₀.bcast_S64_S1x64_1 b))
      = Cert.Gcn.close (n := 50000) (f := 64) agg h d b :=
    fun agg h d b => Cert.Gcn.host_close (n := 50000) (f := 64) agg h d b _ _ _ _
  have hr : ∀ (v : FVec Ideal S50000x128 .f32),
      maximumf v (broadcastInDim S50000x128 ![] Facts₀.bcast_S_S50000x128 (constant (F := Ideal) S_ .f32 0x00000000#32)) = Cert.Gcn.clamp v :=
    fun v => Cert.Gcn.host_clamp v _
  unfold res_main_v98
  rw [hc2, hd2, hr, hc1, hd1]
  rfl

end Cert.ReferenceIdeal.RefValue

end
-- ==== Proof.lean ====
/- A two-layer graph convolution over 50000 nodes and 800000 edges: each layer is h = x · W, then
   agg (h) + h · (1 / deg) + b, where agg adds up at every node the rows of h of its in-neighbours, each scaled by
   rsqrt (deg) of both ends of the edge, and deg is one plus the in-degree; a clamp at zero sits between the layers. The
   kernel computes the two products and the two closing steps in four regions of 25 row blocks each and everything that
   follows the edge list — degrees, edge weights, gathers and scatter-adds — on the host between them; the reference does
   all of it on the host. On the extended reals both are one function of the six arguments (`Glue.out`): a block product
   into a zero accumulator, with its operands' rounding to bf16 the identity, is the same sum over the contracted axis as
   the host's dot_general; the reciprocal degree kept as a column and the bias kept as a row and laid over a block are
   the host's two broadcasts each; the host operations around the regions are the reference's, operation for operation.
   No law that needs finite values is used: the precondition is never opened. The idealization rewrote nothing, so the
   kernel's own frame and `True` close the first and the fourth claim. -/
import proofs.«137684_j1357209665855_1_alg».proof.Defs
import proofs.«137684_j1357209665855_1_alg».proof.Proof.Gen.Kernel
import proofs.«137684_j1357209665855_1_alg».proof.Proof.Gen.Kernel.Skeleton
import proofs.«137684_j1357209665855_1_alg».proof.Proof.Gen.Kernel.Launch
import proofs.«137684_j1357209665855_1_alg».proof.Proof.Gen.Kernel.Points
import proofs.«137684_j1357209665855_1_alg».proof.Proof.Gen.Kernel.Frame
import proofs.«137684_j1357209665855_1_alg».proof.Proof.Gen.KernelIdeal
import proofs.«137684_j1357209665855_1_alg».proof.Proof.Gen.KernelIdeal.Skeleton
import proofs.«137684_j1357209665855_1_alg».proof.Proof.Gen.KernelIdeal.Launch
import proofs.«137684_j1357209665855_1_alg».proof.Proof.Gen.KernelIdeal.Points
import proofs.«137684_j1357209665855_1_alg».proof.Proof.Gen.KernelIdeal.Frame
import proofs.«137684_j1357209665855_1_alg».proof.Proof.Gen.ReferenceIdeal
import proofs.«137684_j1357209665855_1_alg».proof.Proof.Gen.Pre_finite_inputs
import proofs.«137684_j1357209665855_1_alg».proof.Proof.Gen.ReferenceIdeal.Run
import proofs.«137684_j1357209665855_1_alg».proof.Proof.KernelRun
import proofs.«137684_j1357209665855_1_alg».proof.Proof.KernelValue
import proofs.«137684_j1357209665855_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the network's output of the arguments, which agree. -/
theorem algebraic : Cert.algebraic_KernelIdeal_ReferenceIdeal := by
  intro m ρ m' ρ' _ hagree
  refine ⟨fun c => Cert.KernelIdeal.Glue.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Whole.value m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
